-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x32 : Shape := ⟨2, ![500000, 32]⟩
abbrev S500000 : Shape := ⟨1, ![500000]⟩
abbrev S96x64 : Shape := ⟨2, ![96, 64]⟩
abbrev S96x32 : Shape := ⟨2, ![96, 32]⟩
abbrev S96 : Shape := ⟨1, ![96]⟩
abbrev S32 : Shape := ⟨1, ![32]⟩
abbrev S_ : Shape := ⟨0, ![]⟩

class Facts : Prop where
  bcast_S_S500000x32 : S_.BroadcastsInDim S500000x32 (![] : Fin 0 → Fin S500000x32.rank)
  reducesTo_S500000x32_S_d0_1 : S500000x32.ReducesTo [0, 1] S_
  h_S_ : 0 < S_.numel
  bcast_S_S500000 : S_.BroadcastsInDim S500000 (![] : Fin 0 → Fin S500000.rank)
  reducesTo_S500000_S_d0 : S500000.ReducesTo [0] S_
  bcast_S_S96x64 : S_.BroadcastsInDim S96x64 (![] : Fin 0 → Fin S96x64.rank)
  reducesTo_S96x64_S_d0_1 : S96x64.ReducesTo [0, 1] S_
  bcast_S_S96x32 : S_.BroadcastsInDim S96x32 (![] : Fin 0 → Fin S96x32.rank)
  reducesTo_S96x32_S_d0_1 : S96x32.ReducesTo [0, 1] S_
  bcast_S_S96 : S_.BroadcastsInDim S96 (![] : Fin 0 → Fin S96.rank)
  reducesTo_S96_S_d0 : S96.ReducesTo [0] S_
  bcast_S_S32 : S_.BroadcastsInDim S32 (![] : Fin 0 → Fin S32.rank)
  reducesTo_S32_S_d0 : S32.ReducesTo [0] S_

variable [Facts]

def fn_part3 {F : FTy → Type} [FloatOps F] (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  main_v53

def fn_part2 {F : FTy → Type} [FloatOps F] (main_arg7 : FVec F S96 .f32) (main_arg8 : FVec F S96 .f32) (main_arg9 : FVec F S32 .f32) (main_arg10 : FVec F S32 .f32) (main_v33 : IVec S_ 1) : IVec S_ 1 :=
  let main_v34 : FVec F S96 .f32 := Host.absf main_arg7
  let main_cst_12 : FVec F S_ .f32 := constant S_ .f32 0x7F800000#32
  let main_v35 : FVec F S96 .f32 := broadcastInDim S96 ![] bcast_S_S96 main_cst_12
  let main_v36 : IVec S96 1 := cmpf .olt main_v34 main_v35
  let main_c_13 : IVec S_ 1 := constantI S_ 1 1#1
  let main_v37 : IVec S_ 1 := (fun x v => Host.reduce IntOp.andi x v reducesTo_S96_S_d0 h_S_) main_v36 main_c_13
  let main_v38 : IVec S_ 1 := andi main_v33 main_v37
  let main_v39 : FVec F S96 .f32 := Host.absf main_arg8
  let main_cst_14 : FVec F S_ .f32 := constant S_ .f32 0x7F800000#32
  let main_v40 : FVec F S96 .f32 := broadcastInDim S96 ![] bcast_S_S96 main_cst_14
  let main_v41 : IVec S96 1 := cmpf .olt main_v39 main_v40
  let main_c_15 : IVec S_ 1 := constantI S_ 1 1#1
  let main_v42 : IVec S_ 1 := (fun x v => Host.reduce IntOp.andi x v reducesTo_S96_S_d0 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32 .f32 := Host.absf main_arg10
  let main_cst_18 : FVec F S_ .f32 := constant S_ .f32 0x7F800000#32
  let main_v50 : FVec F S32 .f32 := broadcastInDim S32 ![] bcast_S_S32 main_cst_18
  fn_part3 (F := F) main_v48 main_v49 main_v50

def fn_part1 {F : FTy → Type} [FloatOps F] (main_arg4 : FVec F S500000x32 .f32) (main_arg5 : FVec F S96x64 .f32) (main_arg6 : FVec F S96x32 .f32) (main_arg7 : FVec F S96 .f32) (main_arg8 : FVec F S96 .f32) (main_arg9 : FVec F S32 .f32) (main_arg10 : FVec F S32 .f32) (main_v13 : IVec S_ 1) (main_v16 : IVec S500000x32 1) : IVec S_ 1 :=
  let main_c_5 : IVec S_ 1 := constantI S_ 1 1#1
  let main_v17 : IVec S_ 1 := (fun x v => Host.reduce IntOp.andi x v reducesTo_S500000x32_S_d0_1 h_S_) main_v16 main_c_5
  let main_v18 : IVec S_ 1 := andi main_v13 main_v17
  let main_v19 : FVec F S500000x32 .f32 := Host.absf main_arg4
  let main_cst_6 : FVec F S_ .f32 := constant S_ .f32 0x7F800000#32
  let main_v20 : FVec F S500000x32 .f32 := broadcastInDim S500000x32 ![] bcast_S_S500000x32 main_cst_6
  let main_v21 : IVec S500000x32 1 := cmpf .olt main_v19 main_v20
  let main_c_7 : IVec S_ 1 := constantI S_ 1 1#1
  let main_v22 : IVec S_ 1 := (fun x v => Host.reduce IntOp.andi x v reducesTo_S500000x32_S_d0_1 h_S_) main_v21 main_c_7
  let main_v23 : IVec S_ 1 := andi main_v18 main_v22
  let main_v24 : FVec F S96x64 .f32 := Host.absf main_arg5
  let main_cst_8 : FVec F S_ .f32 := constant S_ .f32 0x7F800000#32
  let main_v25 : FVec F S96x64 .f32 := broadcastInDim S96x64 ![] bcast_S_S96x64 main_cst_8
  let main_v26 : IVec S96x64 1 := cmpf .olt main_v24 main_v25
  let main_c_9 : IVec S_ 1 := constantI S_ 1 1#1
  let main_v27 : IVec S_ 1 := (fun x v => Host.reduce IntOp.andi x v reducesTo_S96x64_S_d0_1 h_S_) main_v26 main_c_9
  let main_v28 : IVec S_ 1 := andi main_v23 main_v27
  let main_v29 : FVec F S96x32 .f32 := Host.absf main_arg6
  let main_cst_10 : FVec F S_ .f32 := constant S_ .f32 0x7F800000#32
  let main_v30 : FVec F S96x32 .f32 := broadcastInDim S96x32 ![] bcast_S_S96x32 main_cst_10
  let main_v31 : IVec S96x32 1 := cmpf .olt main_v29 main_v30
  let main_c_11 : IVec S_ 1 := constantI S_ 1 1#1
  let main_v32 : IVec S_ 1 := (fun x v => Host.reduce IntOp.andi x v reducesTo_S96x32_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S500000x32 .f32) (main_arg1 : FVec F S500000 .f32) (main_arg2 : FVec F S500000 .f32) (main_arg3 : FVec F S500000x32 .f32) (main_arg4 : FVec F S500000x32 .f32) (main_arg5 : FVec F S96x64 .f32) (main_arg6 : FVec F S96x32 .f32) (main_arg7 : FVec F S96 .f32) (main_arg8 : FVec F S96 .f32) (main_arg9 : FVec F S32 .f32) (main_arg10 : FVec F S32 .f32) : IVec S_ 1 :=
  let main_v0 : FVec F S500000x32 .f32 := Host.absf main_arg0
  let main_cst : FVec F S_ .f32 := constant S_ .f32 0x7F800000#32
  let main_v1 : FVec F S500000x32 .f32 := broadcastInDim S500000x32 ![] bcast_S_S500000x32 main_cst
  let main_v2 : IVec S500000x32 1 := cmpf .olt main_v0 main_v1
  let main_c : IVec S_ 1 := constantI S_ 1 1#1
  let main_v3 : IVec S_ 1 := (fun x v => Host.reduce IntOp.andi x v reducesTo_S500000x32_S_d0_1 h_S_) main_v2 main_c
  let main_v4 : FVec F S500000 .f32 := Host.absf main_arg1
  let main_cst_0 : FVec F S_ .f32 := constant S_ .f32 0x7F800000#32
  let main_v5 : FVec F S500000 .f32 := broadcastInDim S500000 ![] bcast_S_S500000 main_cst_0
  let main_v6 : IVec S500000 1 := cmpf .olt main_v4 main_v5
  let main_c_1 : IVec S_ 1 := constantI S_ 1 1#1
  let main_v7 : IVec S_ 1 := (fun x v => Host.reduce IntOp.andi x v reducesTo_S500000_S_d0 h_S_) main_v6 main_c_1
  let main_v8 : IVec S_ 1 := andi main_v3 main_v7
  let main_v9 : FVec F S500000 .f32 := Host.absf main_arg2
  let main_cst_2 : FVec F S_ .f32 := constant S_ .f32 0x7F800000#32
  let main_v10 : FVec F S500000 .f32 := broadcastInDim S500000 ![] bcast_S_S500000 main_cst_2
  let main_v11 : IVec S500000 1 := cmpf .olt main_v9 main_v10
  let main_c_3 : IVec S_ 1 := constantI S_ 1 1#1
  let main_v12 : IVec S_ 1 := (fun x v => Host.reduce IntOp.andi x v reducesTo_S500000_S_d0 h_S_) main_v11 main_c_3
  let main_v13 : IVec S_ 1 := andi main_v8 main_v12
  let main_v14 : FVec F S500000x32 .f32 := Host.absf main_arg3
  let main_cst_4 : FVec F S_ .f32 := constant S_ .f32 0x7F800000#32
  let main_v15 : FVec F S500000x32 .f32 := broadcastInDim S500000x32 ![] bcast_S_S500000x32 main_cst_4
  let main_v16 : IVec S500000x32 1 := cmpf .olt main_v14 main_v15
  fn_part1 (F := F) main_arg4 main_arg5 main_arg6 main_arg7 main_arg8 main_arg9 main_arg10 main_v13 main_v16
-- ==== Kernel.lean ====
abbrev S500000x32 : Shape := ⟨2, ![500000, 32]⟩
abbrev S500000 : Shape := ⟨1, ![500000]⟩
abbrev S96x64 : Shape := ⟨2, ![96, 64]⟩
abbrev S96x32 : Shape := ⟨2, ![96, 32]⟩
abbrev S96 : Shape := ⟨1, ![96]⟩
abbrev S32 : Shape := ⟨1, ![32]⟩
abbrev S500000x1 : Shape := ⟨2, ![500000, 1]⟩
abbrev S64x96 : Shape := ⟨2, ![64, 96]⟩
abbrev S32x96 : Shape := ⟨2, ![32, 96]⟩
abbrev S1x96 : Shape := ⟨2, ![1, 96]⟩
abbrev S1x32 : Shape := ⟨2, ![1, 32]⟩
abbrev S4000x32 : Shape := ⟨2, ![4000, 32]⟩
abbrev S4000x1 : Shape := ⟨2, ![4000, 1]⟩
abbrev S4000x64 : Shape := ⟨2, ![4000, 64]⟩
abbrev S4000x96 : Shape := ⟨2, ![4000, 96]⟩

abbrev nBuf : Space → Nat
  | .hbm => 20
  | .vmem => 18
  | .smem => 0
  | _ => 0

abbrev bufTy : (tb : Table) → Fin (tcTables nBuf tb) → BufTy
  | .hbm, ⟨0, _⟩ => ⟨S500000x32, .f32⟩
  | .hbm, ⟨1, _⟩ => ⟨S500000, .f32⟩
  | .hbm, ⟨2, _⟩ => ⟨S500000, .f32⟩
  | .hbm, ⟨3, _⟩ => ⟨S500000x32, .f32⟩
  | .hbm, ⟨4, _⟩ => ⟨S500000x32, .f32⟩
  | .hbm, ⟨5, _⟩ => ⟨S96x64, .f32⟩
  | .hbm, ⟨6, _⟩ => ⟨S96x32, .f32⟩
  | .hbm, ⟨7, _⟩ => ⟨S96, .f32⟩
  | .hbm, ⟨8, _⟩ => ⟨S96, .f32⟩
  | .hbm, ⟨9, _⟩ => ⟨S32, .f32⟩
  | .hbm, ⟨10, _⟩ => ⟨S32, .f32⟩
  | .hbm, ⟨11, _⟩ => ⟨S500000x1, .f32⟩
  | .hbm, ⟨12, _⟩ => ⟨S500000x1, .f32⟩
  | .hbm, ⟨13, _⟩ => ⟨S64x96, .f32⟩
  | .hbm, ⟨14, _⟩ => ⟨S32x96, .f32⟩
  | .hbm, ⟨15, _⟩ => ⟨S1x96, .f32⟩
  | .hbm, ⟨16, _⟩ => ⟨S1x96, .f32⟩
  | .hbm, ⟨17, _⟩ => ⟨S1x32, .f32⟩
  | .hbm, ⟨18, _⟩ => ⟨S1x32, .f32⟩
  | .hbm, ⟨19, _⟩ => ⟨S500000x32, .f32⟩
  | .local _ .vmem, ⟨0, _⟩ => ⟨S4000x32, .f32⟩
  | .local _ .vmem, ⟨1, _⟩ => ⟨S4000x32, .f32⟩
  | .local _ .vmem, ⟨2, _⟩ => ⟨S4000x1, .f32⟩
  | .local _ .vmem, ⟨3, _⟩ => ⟨S4000x1, .f32⟩
  | .local _ .vmem, ⟨4, _⟩ => ⟨S4000x1, .f32⟩
  | .local _ .vmem, ⟨5, _⟩ => ⟨S4000x1, .f32⟩
  | .local _ .vmem, ⟨6, _⟩ => ⟨S4000x32, .f32⟩
  | .local _ .vmem, ⟨7, _⟩ => ⟨S4000x32, .f32⟩
  | .local _ .vmem, ⟨8, _⟩ => ⟨S4000x32, .f32⟩
  | .local _ .vmem, ⟨9, _⟩ => ⟨S4000x32, .f32⟩
  | .local _ .vmem, ⟨10, _⟩ => ⟨S64x96, .f32⟩
  | .local _ .vmem, ⟨11, _⟩ => ⟨S32x96, .f32⟩
  | .local _ .vmem, ⟨12, _⟩ => ⟨S1x96, .f32⟩
  | .local _ .vmem, ⟨13, _⟩ => ⟨S1x96, .f32⟩
  | .local _ .vmem, ⟨14, _⟩ => ⟨S1x32, .f32⟩
  | .local _ .vmem, ⟨15, _⟩ => ⟨S1x32, .f32⟩
  | .local _ .vmem, ⟨16, _⟩ => ⟨S4000x32, .f32⟩
  | .local _ .vmem, ⟨17, _⟩ => ⟨S4000x32, .f32⟩
  | _, _ => ⟨S500000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S64x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x96 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4000x32 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S500000_S500000x1 : S500000.ShapeCasts S500000x1
  transposes_S96x64_S64x96_1_0 : S96x64.Transposes [1, 0] S64x96
  transposes_S96x32_S32x96_1_0 : S96x32.Transposes [1, 0] S32x96
  shapeCasts_S96_S1x96 : S96.ShapeCasts S1x96
  shapeCasts_S32_S1x32 : S32.ShapeCasts S1x32
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S4000x1_S4000x32 : S4000x1.Broadcasts S4000x32
  broadcasts_S1x32_S4000x32 : S1x32.Broadcasts S4000x32
  inb_S4000x32_S4000x32_0_0 : ∀ a, (![0, 0] : Fin 2 → Nat) a + S4000x32.size a ≤ S4000x32.size a
  h_S4000x32 : 0 < S4000x32.numel
  concatenates_S4000x32_S4000x32_S4000x64_d1 : Shape.Concatenates [S4000x32, S4000x32] S4000x64 1
  inb_S64x96_S64x96_0_0 : ∀ a, (![0, 0] : Fin 2 → Nat) a + S64x96.size a ≤ S64x96.size a
  h_S64x96 : 0 < S64x96.numel
  shapeCasts_S64x96_S64x96 : S64x96.ShapeCasts S64x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S4000x96 : S1x96.Broadcasts S4000x96
  inb_S32x96_S32x96_0_0 : ∀ a, (![0, 0] : Fin 2 → Nat) a + S32x96.size a ≤ S32x96.size a
  h_S32x96 : 0 < S32x96.numel
  shapeCasts_S32x96_S32x96 : S32x96.ShapeCasts S32x96
  slices_S4000x96_o0_0_S4000x32 : S4000x96.Slices ![0, 0] S4000x32
  slices_S4000x96_o0_32_S4000x32 : S4000x96.Slices ![0, 32] S4000x32
  slices_S4000x96_o0_64_S4000x32 : S4000x96.Slices ![0, 64] S4000x32
  dot_S4000x64_S64x96_S4000x96_1_0_0_1_n_n_wf : DotDims.WF S4000x64 S64x96 S4000x96 [1] [0] [0] [1] [] []
  dot_S4000x32_S32x96_S4000x96_1_0_0_1_n_n_wf : DotDims.WF S4000x32 S32x96 S4000x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x32.size a ≤ S500000x32.size a
  hwx0_0 : ∀ i : grid0.Coords, EltTy.bits .f32 = 32 ∨ (Rect.block (s := S500000x32) S4000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S500000x1.size a
  hwx0_1 : ∀ i : grid0.Coords, EltTy.bits .f32 = 32 ∨ (Rect.block (s := S500000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S500000x1.size a
  hwx0_2 : ∀ i : grid0.Coords, EltTy.bits .f32 = 32 ∨ (Rect.block (s := S500000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x32.size a ≤ S500000x32.size a
  hwx0_3 : ∀ i : grid0.Coords, EltTy.bits .f32 = 32 ∨ (Rect.block (s := S500000x32) S4000x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x32.size a ≤ S500000x32.size a
  hwx0_4 : ∀ i : grid0.Coords, EltTy.bits .f32 = 32 ∨ (Rect.block (s := S500000x32) S4000x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x96.size a ≤ S64x96.size a
  hwx0_5 : ∀ i : grid0.Coords, EltTy.bits .f32 = 32 ∨ (Rect.block (s := S64x96) S64x96.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x96.size a ≤ S32x96.size a
  hwx0_6 : ∀ i : grid0.Coords, EltTy.bits .f32 = 32 ∨ (Rect.block (s := S32x96) S32x96.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x96.size a ≤ S1x96.size a
  hwx0_7 : ∀ i : grid0.Coords, EltTy.bits .f32 = 32 ∨ (Rect.block (s := S1x96) S1x96.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x96.size a ≤ S1x96.size a
  hwx0_8 : ∀ i : grid0.Coords, EltTy.bits .f32 = 32 ∨ (Rect.block (s := S1x96) S1x96.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x32.size a ≤ S1x32.size a
  hwx0_9 : ∀ i : grid0.Coords, EltTy.bits .f32 = 32 ∨ (Rect.block (s := S1x32) S1x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x32.size a ≤ S1x32.size a
  hwx0_10 : ∀ i : grid0.Coords, EltTy.bits .f32 = 32 ∨ (Rect.block (s := S1x32) S1x32.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4000x32.size a ≤ S500000x32.size a
  hwx0_11 : ∀ i : grid0.Coords, EltTy.bits .f32 = 32 ∨ (Rect.block (s := S500000x32) S4000x32.size (cc0_transform_11 i) (hinb0_11 i)).WholeWords (EltTy.packing .f32)

variable [Facts₀]

def dot_S4000x64_S64x96_S4000x96_1_0_0_1_n_n : DotDims S4000x64 S64x96 S4000x96 where
  lhsContracting := [1]
  rhsContracting := [0]
  lhsNonContracting := [0]
  rhsNonContracting := [1]
  lhsBatch := []
  rhsBatch := []
  wf := dot_S4000x64_S64x96_S4000x96_1_0_0_1_n_n_wf
def dot_S4000x32_S32x96_S4000x96_1_0_0_1_n_n : DotDims S4000x32 S32x96 S4000x96 where
  lhsContracting := [1]
  rhsContracting := [0]
  lhsNonContracting := [0]
  rhsNonContracting := [1]
  lhsBatch := []
  rhsBatch := []
  wf := dot_S4000x32_S32x96_S4000x96_1_0_0_1_n_n_wf

abbrev win0_0 : Pipeline.Window sig grid0 :=
  Pipeline.Window.ofSpec (Memref.whole main_arg0) S4000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4000x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4000x32.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S64x96.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S32x96.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x96.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x96.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S1x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S1x32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v8) S4000x32.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S500000x32 : Shape := ⟨2, ![500000, 32]⟩
abbrev S500000 : Shape := ⟨1, ![500000]⟩
abbrev S96x64 : Shape := ⟨2, ![96, 64]⟩
abbrev S96x32 : Shape := ⟨2, ![96, 32]⟩
abbrev S96 : Shape := ⟨1, ![96]⟩
abbrev S32 : Shape := ⟨1, ![32]⟩
abbrev S500000x1 : Shape := ⟨2, ![500000, 1]⟩
abbrev S1x32 : Shape := ⟨2, ![1, 32]⟩
abbrev S500000x64 : Shape := ⟨2, ![500000, 64]⟩
abbrev S64x96 : Shape := ⟨2, ![64, 96]⟩
abbrev S500000x96 : Shape := ⟨2, ![500000, 96]⟩
abbrev S1x96 : Shape := ⟨2, ![1, 96]⟩
abbrev S32x96 : Shape := ⟨2, ![32, 96]⟩
abbrev S_ : Shape := ⟨0, ![]⟩

abbrev nBuf : Space → Nat
  | .hbm => 66
  | .vmem => 0
  | .smem => 0
  | _ => 0

abbrev bufTy : (tb : Table) → Fin (tcTables nBuf tb) → BufTy
  | .hbm, ⟨0, _⟩ => ⟨S500000x32, .f32⟩
  | .hbm, ⟨1, _⟩ => ⟨S500000, .f32⟩
  | .hbm, ⟨2, _⟩ => ⟨S500000, .f32⟩
  | .hbm, ⟨3, _⟩ => ⟨S500000x32, .f32⟩
  | .hbm, ⟨4, _⟩ => ⟨S500000x32, .f32⟩
  | .hbm, ⟨5, _⟩ => ⟨S96x64, .f32⟩
  | .hbm, ⟨6, _⟩ => ⟨S96x32, .f32⟩
  | .hbm, ⟨7, _⟩ => ⟨S96, .f32⟩
  | .hbm, ⟨8, _⟩ => ⟨S96, .f32⟩
  | .hbm, ⟨9, _⟩ => ⟨S32, .f32⟩
  | .hbm, ⟨10, _⟩ => ⟨S32, .f32⟩
  | .hbm, ⟨11, _⟩ => ⟨S500000, .f32⟩
  | .hbm, ⟨12, _⟩ => ⟨S500000x1, .f32⟩
  | .hbm, ⟨13, _⟩ => ⟨S1x32, .f32⟩
  | .hbm, ⟨14, _⟩ => ⟨S500000x32, .f32⟩
  | .hbm, ⟨15, _⟩ => ⟨S500000x32, .f32⟩
  | .hbm, ⟨16, _⟩ => ⟨S500000x32, .f32⟩
  | .hbm, ⟨17, _⟩ => ⟨S1x32, .f32⟩
  | .hbm, ⟨18, _⟩ => ⟨S500000x32, .f32⟩
  | .hbm, ⟨19, _⟩ => ⟨S500000x32, .f32⟩
  | .hbm, ⟨20, _⟩ => ⟨S500000x32, .f32⟩
  | .hbm, ⟨21, _⟩ => ⟨S500000x64, .f32⟩
  | .hbm, ⟨22, _⟩ => ⟨S64x96, .f32⟩
  | .hbm, ⟨23, _⟩ => ⟨S500000x96, .f32⟩
  | .hbm, ⟨24, _⟩ => ⟨S1x96, .f32⟩
  | .hbm, ⟨25, _⟩ => ⟨S500000x96, .f32⟩
  | .hbm, ⟨26, _⟩ => ⟨S500000x96, .f32⟩
  | .hbm, ⟨27, _⟩ => ⟨S32x96, .f32⟩
  | .hbm, ⟨28, _⟩ => ⟨S500000x96, .f32⟩
  | .hbm, ⟨29, _⟩ => ⟨S1x96, .f32⟩
  | .hbm, ⟨30, _⟩ => ⟨S500000x96, .f32⟩
  | .hbm, ⟨31, _⟩ => ⟨S500000x96, .f32⟩
  | .hbm, ⟨32, _⟩ => ⟨S500000x32, .f32⟩
  | .hbm, ⟨33, _⟩ => ⟨S500000x32, .f32⟩
  | .hbm, ⟨34, _⟩ => ⟨S500000x32, .f32⟩
  | .hbm, ⟨35, _⟩ => ⟨S500000x32, .f32⟩
  | .hbm, ⟨36, _⟩ => ⟨S500000x32, .f32⟩
  | .hbm, ⟨37, _⟩ => ⟨S500000x32, .f32⟩
  | .hbm, ⟨38, _⟩ => ⟨S500000x32, .f32⟩
  | .hbm, ⟨39, _⟩ => ⟨S500000x32, .f32⟩
  | .hbm, ⟨40, _⟩ => ⟨S500000x32, .f32⟩
  | .hbm, ⟨41, _⟩ => ⟨S_, .f32⟩
  | .hbm, ⟨42, _⟩ => ⟨S500000x32, .f32⟩
  | .hbm, ⟨43, _⟩ => ⟨S500000x32, .f32⟩
  | .hbm, ⟨44, _⟩ => ⟨S_, .f32⟩
  | .hbm, ⟨45, _⟩ => ⟨S500000x32, .f32⟩
  | .hbm, ⟨46, _⟩ => ⟨S500000x32, .f32⟩
  | .hbm, ⟨47, _⟩ => ⟨S500000x32, .f32⟩
  | .hbm, ⟨48, _⟩ => ⟨S500000x32, .f32⟩
  | .hbm, ⟨49, _⟩ => ⟨S500000x32, .f32⟩
  | .hbm, ⟨50, _⟩ => ⟨S_, .f32⟩
  | .hbm, ⟨51, _⟩ => ⟨S500000x32, .f32⟩
  | .hbm, ⟨52, _⟩ => ⟨S500000x32, .f32⟩
  | .hbm, ⟨53, _⟩ => ⟨S_, .f32⟩
  | .hbm, ⟨54, _⟩ => ⟨S500000x32, .f32⟩
  | .hbm, ⟨55, _⟩ => ⟨S500000x32, .f32⟩
  | .hbm, ⟨56, _⟩ => ⟨S500000x32, .f32⟩
  | .hbm, ⟨57, _⟩ => ⟨S500000x32, .f32⟩
  | .hbm, ⟨58, _⟩ => ⟨S500000x32, .f32⟩
  | .hbm, ⟨59, _⟩ => ⟨S_, .f32⟩
  | .hbm, ⟨60, _⟩ => ⟨S500000x32, .f32⟩
  | .hbm, ⟨61, _⟩ => ⟨S500000x32, .f32⟩
  | .hbm, ⟨62, _⟩ => ⟨S500000x32, .f32⟩
  | .hbm, ⟨63, _⟩ => ⟨S500000x32, .f32⟩
  | .hbm, ⟨64, _⟩ => ⟨S500000x32, .f32⟩
  | .hbm, ⟨65, _⟩ => ⟨S500000x32, .f32⟩
  | _, _ => ⟨S500000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst : Ref sig .tc := ⟨.hbm, 41, rfl⟩
abbrev main_v30 : Ref sig .tc := ⟨.hbm, 42, rfl⟩
abbrev main_v31 : Ref sig .tc := ⟨.hbm, 43, rfl⟩
abbrev main_cst_0 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_1 : Ref sig .tc := ⟨.hbm, 50, rfl⟩
abbrev main_v37 : Ref sig .tc := ⟨.hbm, 51, rfl⟩
abbrev main_v38 : Ref sig .tc := ⟨.hbm, 52, rfl⟩
abbrev main_cst_2 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_3 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩

abbrev nD : Nat := 1
abbrev τ : Topo := Topo.v7x

variable {F : FTy → Type} [FloatOps F]

class Facts₀ : Prop where
  bcast_S500000_S500000x1_0 : S500000.BroadcastsInDim S500000x1 (![0] : Fin 1 → Fin S500000x1.rank)
  bcast_S32_S1x32_1 : S32.BroadcastsInDim S1x32 (![1] : Fin 1 → Fin S1x32.rank)
  bcast_S500000x1_S500000x32_0_1 : S500000x1.BroadcastsInDim S500000x32 (![0, 1] : Fin 2 → Fin S500000x32.rank)
  bcast_S1x32_S500000x32_0_1 : S1x32.BroadcastsInDim S500000x32 (![0, 1] : Fin 2 → Fin S500000x32.rank)
  concatenates_S500000x32_S500000x32_S500000x64_d1 : Shape.Concatenates [S500000x32, S500000x32] S500000x64 1
  transposes_S96x64_S64x96_1_0 : S96x64.Transposes [1, 0] S64x96
  bcast_S96_S1x96_1 : S96.BroadcastsInDim S1x96 (![1] : Fin 1 → Fin S1x96.rank)
  bcast_S1x96_S500000x96_0_1 : S1x96.BroadcastsInDim S500000x96 (![0, 1] : Fin 2 → Fin S500000x96.rank)
  transposes_S96x32_S32x96_1_0 : S96x32.Transposes [1, 0] S32x96
  slices_S500000x96_S500000x32_0_0 : S500000x96.Slices ![0, 0] S500000x32
  slices_S500000x96_S500000x32_0_32 : S500000x96.Slices ![0, 32] S500000x32
  slices_S500000x96_S500000x32_0_64 : S500000x96.Slices ![0, 64] S500000x32
  bcast_S_S500000x32 : S_.BroadcastsInDim S500000x32 (![] : Fin 0 → Fin S500000x32.rank)
  dot_S500000x64_S64x96_S500000x96_1_0_0_1_n_n_wf : DotDims.WF S500000x64 S64x96 S500000x96 [1] [0] [0] [1] [] []
  dot_S500000x32_S32x96_S500000x96_1_0_0_1_n_n_wf : DotDims.WF S500000x32 S32x96 S500000x96 [1] [0] [0] [1] [] []

variable [Facts₀]

def dot_S500000x64_S64x96_S500000x96_1_0_0_1_n_n : DotDims S500000x64 S64x96 S500000x96 where
  lhsContracting := [1]
  rhsContracting := [0]
  lhsNonContracting := [0]
  rhsNonContracting := [1]
  lhsBatch := []
  rhsBatch := []
  wf := dot_S500000x64_S64x96_S500000x96_1_0_0_1_n_n_wf
def dot_S500000x32_S32x96_S500000x96_1_0_0_1_n_n : DotDims S500000x32 S32x96 S500000x96 where
  lhsContracting := [1]
  rhsContracting := [0]
  lhsNonContracting := [0]
  rhsNonContracting := [1]
  lhsBatch := []
  rhsBatch := []
  wf := dot_S500000x32_S32x96_S500000x96_1_0_0_1_n_n_wf

class Facts : Prop extends Facts₀ where

variable [Facts]
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.Spec.lean ====
/-
  A gated recurrent cell with a time encoding, on the extended reals, row by row.

  A row carries a message `mail` (32 features), two time stamps, the memory `mem` (32 features) and a residual `rh`.
  The input of the input-side gates is the message followed by the time encoding `cos (Δt · ω_k + φ_k)`, `k < 32`, of the
  difference of the stamps (`feat`: 64 features).  Each side is an affine map to 96 gate pre-activations (`gate`:
  `Σ_k x(p,k) · W(k,c) + b(c)`), three groups of 32: reset, update, candidate.  The new memory at feature `j` is
  `(1 - z) · n + z · mem + rh` with `r = σ(gx_j + gh_j)`, `z = σ(gx_{32+j} + gh_{32+j})`,
  `n = tanh (gx_{64+j} + r · gh_{64+j})` (`cell`).  Every entry of the result depends on its own row of the row-indexed
  arrays only (`feat_rows`, `gate_rows`, `cell_rows`), which is what lets a block of rows be computed alone.
-/
import proofs.«152315_g17171279250048_cont_8to1_37_2_alg».proof.Proof.LibDense

noncomputable section

open scoped BigOperators

namespace Cert.Gru

open Idealize.ShloMosaic Idealize.ShloMosaic.ValueIdx Cert.Dense

/-- The literal one both programs carry. -/
abbrev one : EReal := Ideal.ofBits .f32 0x3F800000#32

/-- The message followed by the time encoding of the stamps' difference. -/
def feat {M : ℕ} (mail : Mat M 32) (t1 t2 : Fin M → EReal) (tw tb : Fin 32 → EReal) : Mat M 64 := fun i =>
  if h : (i 1).val < 32 then mail (ix2 (c0 i) ⟨(i 1).val, h⟩)
  else Ideal.cos ((t1 (c0 i) - t2 (c0 i)) * tw ⟨(i 1).val - 32, by have := idx2_lt1 i; omega⟩
        + tb ⟨(i 1).val - 32, by have := idx2_lt1 i; omega⟩)

theorem feat_left {M : ℕ} (mail : Mat M 32) (t1 t2 : Fin M → EReal) (tw tb : Fin 32 → EReal) (p : Fin M) (k : Fin 64)
    (h : k.val < 32) : feat mail t1 t2 tw tb (ix2 p k) = mail (ix2 p ⟨k.val, h⟩) := by
  unfold feat
  rw [dif_pos (show ((ix2 p k) 1).val < 32 from h)]
  rfl

theorem feat_right {M : ℕ} (mail : Mat M 32) (t1 t2 : Fin M → EReal) (tw tb : Fin 32 → EReal) (p : Fin M) (k : Fin 64)
    (h : 32 ≤ k.val) :
    feat mail t1 t2 tw tb (ix2 p k)
      = Ideal.cos ((t1 p - t2 p) * tw ⟨k.val - 32, by have := k.isLt; omega⟩ + tb ⟨k.val - 32, by have := k.isLt; omega⟩) := by
  unfold feat
  rw [dif_neg (show ¬((ix2 p k) 1).val < 32 from Nat.not_lt.2 h)]
  rfl

/-- A row of the features depends on the same row of the message and on that row's stamps only. -/
theorem feat_rows {M M' : ℕ} (mail : Mat M 32) (mail' : Mat M' 32) (t1 t2 : Fin M → EReal) (t1' t2' : Fin M' → EReal)
    (tw tb : Fin 32 → EReal) (p : Fin M) (p' : Fin M') (hm : ∀ k, mail' (ix2 p' k) = mail (ix2 p k))
    (h1 : t1' p' = t1 p) (h2 : t2' p' = t2 p) (k : Fin 64) :
    feat mail' t1' t2' tw tb (ix2 p' k) = feat mail t1 t2 tw tb (ix2 p k) := by
  by_cases h : k.val < 32
  · rw [feat_left _ _ _ _ _ _ _ h, feat_left _ _ _ _ _ _ _ h, hm]
  · rw [feat_right _ _ _ _ _ _ _ (Nat.not_lt.1 h), feat_right _ _ _ _ _ _ _ (Nat.not_lt.1 h), h1, h2]

/-- One side's 96 gate pre-activations of row `p`. -/
def gate {M K : ℕ} (X : Mat M K) (W : Mat K 96) (b : Fin 96 → EReal) (p : Fin M) (c : Fin 96) : EReal :=
  mm X W (ix2 p c) + b c

theorem gate_rows {M M' K : ℕ} (X : Mat M K) (X' : Mat M' K) (W : Mat K 96) (b : Fin 96 → EReal) (p : Fin M) (p' : Fin M')
    (hX : ∀ k, X' (ix2 p' k) = X (ix2 p k)) (c : Fin 96) : gate X' W b p' c = gate X W b p c := by
  unfold gate
  rw [mm_rows X X' W p p' hX c]

/-- The three gate groups of feature `j`. -/
abbrev g0 (j : Fin 32) : Fin 96 := ⟨j.val, by have := j.isLt; omega⟩
abbrev g1 (j : Fin 32) : Fin 96 := ⟨j.val + 32, by have := j.isLt; omega⟩
abbrev g2 (j : Fin 32) : Fin 96 := ⟨j.val + 64, by have := j.isLt; omega⟩

/-- The recurrent step from the two sides' pre-activations: `(1 - z) · n + z · mem + rh`. -/
def step (gx gh : Fin 96 → EReal) (mem rh : EReal) (j : Fin 32) : EReal :=
  (one - Ideal.logistic (gx (g1 j) + gh (g1 j)))
      * Ideal.tanh (gx (g2 j) + Ideal.logistic (gx (g0 j) + gh (g0 j)) * gh (g2 j))
    + Ideal.logistic (gx (g1 j) + gh (g1 j)) * mem + rh

/-- The cell over `M` rows. -/
def cell {M : ℕ} (mail : Mat M 32) (t1 t2 : Fin M → EReal) (mem rh : Mat M 32) (Wx : Mat 64 96) (Wh : Mat 32 96)
    (bx bh : Fin 96 → EReal) (tw tb : Fin 32 → EReal) : Mat M 32 := fun i =>
  step (gate (feat mail t1 t2 tw tb) Wx bx (c0 i)) (gate mem Wh bh (c0 i)) (mem (ix2 (c0 i) (c1 i))) (rh (ix2 (c0 i) (c1 i))) (c1 i)

theorem cell_apply {M : ℕ} (mail : Mat M 32) (t1 t2 : Fin M → EReal) (mem rh : Mat M 32) (Wx : Mat 64 96) (Wh : Mat 32 96)
    (bx bh : Fin 96 → EReal) (tw tb : Fin 32 → EReal) (p : Fin M) (j : Fin 32) :
    cell mail t1 t2 mem rh Wx Wh bx bh tw tb (ix2 p j)
      = step (gate (feat mail t1 t2 tw tb) Wx bx p) (gate mem Wh bh p) (mem (ix2 p j)) (rh (ix2 p j)) j := rfl

/-- A row of the cell's result depends on the same row of the row-indexed arrays only. -/
theorem cell_rows {M M' : ℕ} (mail : Mat M 32) (mail' : Mat M' 32) (t1 t2 : Fin M → EReal) (t1' t2' : Fin M' → EReal)
    (mem rh : Mat M 32) (mem' rh' : Mat M' 32) (Wx : Mat 64 96) (Wh : Mat 32 96) (bx bh : Fin 96 → EReal)
    (tw tb : Fin 32 → EReal) (p : Fin M) (p' : Fin M')
    (hmail : ∀ k, mail' (ix2 p' k) = mail (ix2 p k)) (h1 : t1' p' = t1 p) (h2 : t2' p' = t2 p)
    (hmem : ∀ k, mem' (ix2 p' k) = mem (ix2 p k)) (hrh : ∀ k, rh' (ix2 p' k) = rh (ix2 p k)) (j : Fin 32) :
    cell mail' t1' t2' mem' rh' Wx Wh bx bh tw tb (ix2 p' j) = cell mail t1 t2 mem rh Wx Wh bx bh tw tb (ix2 p j) := by
  rw [cell_apply, cell_apply, hmem j, hrh j]
  have ex : gate (feat mail' t1' t2' tw tb) Wx bx p' = gate (feat mail t1 t2 tw tb) Wx bx p :=
    funext fun c => gate_rows _ _ Wx bx p p' (feat_rows mail mail' t1 t2 t1' t2' tw tb p p' hmail h1 h2) c
  have eh : gate mem' Wh bh p' = gate mem Wh bh p := funext fun c => gate_rows _ _ Wh bh p p' hmem c
  rw [ex, eh]

end Cert.Gru

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.Payload.lean ====
/-
  What the kernel leaves in one block of rows is the recurrent cell of the block's operands.

  The body computes, from a block of 4000 rows: the time encoding (the stamps' difference, a column, broadcast along the
  row; the frequencies and phases, one row each, broadcast along the rows), joins it to the message (`feat`), multiplies
  by the transposed weights into a zero accumulator and adds the one-row bias (one side's `gate`), the same on the memory
  side, and finishes with `step` on the three column groups.
-/
import proofs.«152315_g17171279250048_cont_8to1_37_2_alg».proof.Proof.Gen.KernelIdeal.Value
import proofs.«152315_g17171279250048_cont_8to1_37_2_alg».proof.Proof.Spec
import proofs.«152315_g17171279250048_cont_8to1_37_2_alg».proof.Proof.LibRowBlocks

noncomputable section

open scoped BigOperators

namespace Cert.Gru.Kern

open Idealize.ShloMosaic Idealize.ShloMosaic.ValueIdx Cert.Dense Cert.Gru
open Cert.KernelIdeal Cert.KernelIdeal.Gen Cert.KernelIdeal.Value

/-- The block's time encoding, as the body spells it. -/
abbrev enc (P0 P1 : FVec Ideal S4000x1 .f32) (P2 P3 : FVec Ideal S1x32 .f32) : FVec Ideal S4000x32 .f32 :=
  cos (addf (mulf (broadcastTo S4000x32 (subf P0 P1) broadcasts_S4000x1_S4000x32) (broadcastTo S4000x32 P2 broadcasts_S1x32_S4000x32))
    (broadcastTo S4000x32 P3 broadcasts_S1x32_S4000x32))

theorem enc_apply (P0 P1 : FVec Ideal S4000x1 .f32) (P2 P3 : FVec Ideal S1x32 .f32) (q : Fin 4000) (k : Fin 32) :
    enc P0 P1 P2 P3 (ix2 q k)
      = Ideal.cos ((P0 (ix2 q (0 : Fin 1)) - P1 (ix2 q (0 : Fin 1))) * P2 (ix2 (0 : Fin 1) k) + P3 (ix2 (0 : Fin 1) k)) := by
  show Ideal.cos (broadcastTo S4000x32 (subf P0 P1) broadcasts_S4000x1_S4000x32 (ix2 q k)
      * broadcastTo S4000x32 P2 broadcasts_S1x32_S4000x32 (ix2 q k)
      + broadcastTo S4000x32 P3 broadcasts_S1x32_S4000x32 (ix2 q k)) = _
  rw [Cert.RowBlocks.broadcastTo_col_apply, broadcastTo_1b_ab_apply, broadcastTo_1b_ab_apply]
  rfl

/-- The block's features, in the specification's terms. -/
abbrev bfeat (P0 P1 : FVec Ideal S4000x1 .f32) (P2 P3 : FVec Ideal S1x32 .f32) (P4 : FVec Ideal S4000x32 .f32) : Mat 4000 64 :=
  feat P4 (fun q => P0 (ix2 q (0 : Fin 1))) (fun q => P1 (ix2 q (0 : Fin 1))) (fun k => P2 (ix2 (0 : Fin 1) k))
    (fun k => P3 (ix2 (0 : Fin 1) k))

/-- The message joined with the time encoding is `feat` of the block. -/
theorem joined_eq (P0 P1 : FVec Ideal S4000x1 .f32) (P2 P3 : FVec Ideal S1x32 .f32) (P4 : FVec Ideal S4000x32 .f32) :
    concatenate S4000x64 1 [⟨S4000x32, P4⟩, ⟨S4000x32, enc P0 P1 P2 P3⟩] concatenates_S4000x32_S4000x32_S4000x64_d1
      = bfeat P0 P1 P2 P3 P4 := by
  funext i
  obtain ⟨q, k, rfl⟩ : ∃ (q : Fin 4000) (k : Fin 64), i = ix2 q k := ⟨i 0, i 1, eq_ix2 i⟩
  unfold bfeat
  by_cases h : k.val < 32
  · rw [feat_left _ _ _ _ _ _ _ h]
    exact concatenate_pair_apply_left (t := S4000x64) (s₁ := S4000x32) (s₂ := S4000x32) (1 : Fin 2) P4 (enc P0 P1 P2 P3)
      concatenates_S4000x32_S4000x32_S4000x64_d1 (ix2 q k) rfl
      (ix2 q ⟨k.val, h⟩) (fun b => by match b with | ⟨0, _⟩ => rfl | ⟨1, _⟩ => rfl)
  · have h' : 32 ≤ k.val := Nat.not_lt.1 h
    rw [feat_right _ _ _ _ _ _ _ h']
    refine (concatenate_pair_apply_right (t := S4000x64) (s₁ := S4000x32) (s₂ := S4000x32) (1 : Fin 2) P4 (enc P0 P1 P2 P3)
      concatenates_S4000x32_S4000x32_S4000x64_d1 (ix2 q k) rfl rfl
      (ix2 q (⟨k.val - 32, by have := k.isLt; omega⟩ : Fin 32)) (fun b hb => by
        match b with
        | ⟨0, _⟩ => rfl
        | ⟨1, _⟩ => exact absurd rfl hb) (by show k.val - 32 + 32 = k.val; omega)).trans ?_
    exact enc_apply P0 P1 P2 P3 q _

/-- The input side's payload: the features times the weights, plus the bias row broadcast along the rows. -/
theorem pay2_eq (P0 P1 : FVec Ideal S4000x1 .f32) (P2 P3 : FVec Ideal S1x32 .f32) (P4 : FVec Ideal S4000x32 .f32)
    (P5 : FVec Ideal S64x96 .f32) (P6 : FVec Ideal S1x96 .f32) :
    k0_pay2 (F := Ideal) P0 P1 P2 P3 P4 P5 P6
      = addf (mm (bfeat P0 P1 P2 P3 P4) P5) (broadcastTo S4000x96 P6 broadcasts_S1x96_S4000x96) := by
  unfold k0_pay2
  simp only [shapeCast_self]
  rw [matmul_zero_eq_mm dot_S4000x64_S64x96_S4000x96_1_0_0_1_n_n rfl rfl rfl rfl rfl rfl none _ _, joined_eq]
  simp only [shapeCast_self]

/-- The memory side's payload. -/
theorem pay3_eq (P7 : FVec Ideal S4000x32 .f32) (P8 : FVec Ideal S32x96 .f32) (P9 : FVec Ideal S1x96 .f32) :
    k0_pay3 (F := Ideal) P7 P8 P9 = addf (mm P7 P8) (broadcastTo S4000x96 P9 broadcasts_S1x96_S4000x96) := by
  unfold k0_pay3
  simp only [shapeCast_self]
  rw [matmul_zero_eq_mm dot_S4000x32_S32x96_S4000x96_1_0_0_1_n_n rfl rfl rfl rfl rfl rfl none _ _]

/-- The input side's pre-activations of the block. -/
theorem gx_apply (P0 P1 : FVec Ideal S4000x1 .f32) (P2 P3 : FVec Ideal S1x32 .f32) (P4 : FVec Ideal S4000x32 .f32)
    (P5 : FVec Ideal S64x96 .f32) (P6 : FVec Ideal S1x96 .f32)
    (i : S4000x96.Idx) (q : Fin 4000) (c : Fin 96) (h0 : (i 0).val = q.val) (h1 : (i 1).val = c.val) :
    k0_pay2 (F := Ideal) P0 P1 P2 P3 P4 P5 P6 i
      = gate (bfeat P0 P1 P2 P3 P4) P5 (fun c => P6 (ix2 (0 : Fin 1) c)) q c := by
  obtain rfl : i = ix2 q c := funext fun a => Fin.ext (by match a with | ⟨0, _⟩ => exact h0 | ⟨1, _⟩ => exact h1)
  rw [pay2_eq]
  show mm (bfeat P0 P1 P2 P3 P4) P5 (ix2 q c) + broadcastTo S4000x96 P6 broadcasts_S1x96_S4000x96 (ix2 q c) = _
  rw [broadcastTo_1b_ab_apply]
  rfl

/-- The memory side's pre-activations of the block. -/
theorem gh_apply (P7 : FVec Ideal S4000x32 .f32) (P8 : FVec Ideal S32x96 .f32) (P9 : FVec Ideal S1x96 .f32)
    (i : S4000x96.Idx) (q : Fin 4000) (c : Fin 96) (h0 : (i 0).val = q.val) (h1 : (i 1).val = c.val) :
    k0_pay3 (F := Ideal) P7 P8 P9 i = gate P7 P8 (fun c => P9 (ix2 (0 : Fin 1) c)) q c := by
  obtain rfl : i = ix2 q c := funext fun a => Fin.ext (by match a with | ⟨0, _⟩ => exact h0 | ⟨1, _⟩ => exact h1)
  rw [pay3_eq]
  show mm P7 P8 (ix2 q c) + broadcastTo S4000x96 P9 broadcasts_S1x96_S4000x96 (ix2 q c) = _
  rw [broadcastTo_1b_ab_apply]
  rfl

/-- The block the body leaves is the cell of the block's operands. -/
theorem block_eq (P0 P1 : FVec Ideal S4000x1 .f32) (P2 P3 : FVec Ideal S1x32 .f32) (P4 : FVec Ideal S4000x32 .f32)
    (P5 : FVec Ideal S64x96 .f32) (P6 : FVec Ideal S1x96 .f32) (P7 : FVec Ideal S4000x32 .f32) (P8 : FVec Ideal S32x96 .f32)
    (P9 : FVec Ideal S1x96 .f32) (P10 : FVec Ideal S4000x32 .f32) (y : S4000x32.Idx) :
    E11 (F := Ideal) P0 P1 P2 P3 P4 P5 P6 P7 P8 P9 P10 y
      = cell P4 (fun q => P0 (ix2 q (0 : Fin 1))) (fun q => P1 (ix2 q (0 : Fin 1))) P7 P10 P5 P8
          (fun c => P6 (ix2 (0 : Fin 1) c)) (fun c => P9 (ix2 (0 : Fin 1) c)) (fun k => P2 (ix2 (0 : Fin 1) k))
          (fun k => P3 (ix2 (0 : Fin 1) k)) y := by
  obtain ⟨q, j, rfl⟩ : ∃ (q : Fin 4000) (j : Fin 32), y = ix2 q j := ⟨y 0, y 1, eq_ix2 y⟩
  have a0 := gx_apply P0 P1 P2 P3 P4 P5 P6 (ix11_0 (ix2 q j)) q (g1 j) rfl rfl
  have a1 := gh_apply P7 P8 P9 (ix11_1 (ix2 q j)) q (g1 j) rfl rfl
  have a2 := gx_apply P0 P1 P2 P3 P4 P5 P6 (ix11_2 (ix2 q j)) q (g2 j) rfl rfl
  have a3 := gx_apply P0 P1 P2 P3 P4 P5 P6 (ix11_3 (ix2 q j)) q (g0 j) rfl rfl
  have a4 := gh_apply P7 P8 P9 (ix11_4 (ix2 q j)) q (g0 j) rfl rfl
  have a5 := gh_apply P7 P8 P9 (ix11_5 (ix2 q j)) q (g2 j) rfl rfl
  have a8 : P7 (ix11_8 (ix2 q j)) = P7 (ix2 q j) :=
    congrArg P7 (funext fun a => Fin.ext (by match a with | ⟨0, _⟩ => rfl | ⟨1, _⟩ => rfl))
  have a9 : P10 (ix11_9 (ix2 q j)) = P10 (ix2 q j) :=
    congrArg P10 (funext fun a => Fin.ext (by match a with | ⟨0, _⟩ => rfl | ⟨1, _⟩ => rfl))
  unfold E11
  rw [a0, a1, a2, a3, a4, a5, a8, a9]
  rfl

end Cert.Gru.Kern

end
-- ==== Proof.Blocks.lean ====
/-
  From blocks of rows to the whole array.

  The grid has 125 points; point `t` sees rows `4000 t … 4000 t + 3999` of every row-indexed array (the message, the two
  stamp columns, the memory, the residual) and the whole of the weight matrices, bias rows, frequencies and phases, and
  writes back rows `4000 t … 4000 t + 3999` of the result.  A row of the cell depends on its own row only, so the block
  the body leaves at point `t` is block `t` of the cell of the whole arrays; the 125 blocks tile the 500000 rows, so
  the result array ends holding that cell.
-/
import proofs.«152315_g17171279250048_cont_8to1_37_2_alg».proof.Proof.Payload
import proofs.«152315_g17171279250048_cont_8to1_37_2_alg».proof.Proof.Gen.KernelIdeal.Frame
import Idealize.ShloMosaic.Lib.Pipeline.Value
import Idealize.ShloMosaic.Lib.ValueLayout
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.Gru.Blocks

open Cert.Dense Cert.Gru Cert.KernelIdeal Cert.KernelIdeal.Gen Cert.KernelIdeal.Value

variable (m : (ℓ : Loc nD τ sig) → Buf (Elt Ideal) ℓ) (ρ : Dev nD → PrngReg)

/-! ## The arrays the region finds: the arguments re-laid by the host -/

theorem V_v0 (c : Dev nD) : V m c main_v0 = shapeCast S500000x1 (m ((c : Thread nD τ).loc main_arg1)) shapeCasts_S500000_S500000x1 := by
  unfold V; after_results; rfl
theorem V_v1 (c : Dev nD) : V m c main_v1 = shapeCast S500000x1 (m ((c : Thread nD τ).loc main_arg2)) shapeCasts_S500000_S500000x1 := by
  unfold V; after_results; rfl
theorem V_v2 (c : Dev nD) : V m c main_v2 = transpose S64x96 [1, 0] (m ((c : Thread nD τ).loc main_arg5)) transposes_S96x64_S64x96_1_0 := by
  unfold V; after_results
theorem V_v3 (c : Dev nD) : V m c main_v3 = transpose S32x96 [1, 0] (m ((c : Thread nD τ).loc main_arg6)) transposes_S96x32_S32x96_1_0 := by
  unfold V; after_results
theorem V_v4 (c : Dev nD) : V m c main_v4 = shapeCast S1x96 (m ((c : Thread nD τ).loc main_arg7)) shapeCasts_S96_S1x96 := by
  unfold V; after_results; rfl
theorem V_v5 (c : Dev nD) : V m c main_v5 = shapeCast S1x96 (m ((c : Thread nD τ).loc main_arg8)) shapeCasts_S96_S1x96 := by
  unfold V; after_results; rfl
theorem V_v6 (c : Dev nD) : V m c main_v6 = shapeCast S1x32 (m ((c : Thread nD τ).loc main_arg9)) shapeCasts_S32_S1x32 := by
  unfold V; after_results; rfl
theorem V_v7 (c : Dev nD) : V m c main_v7 = shapeCast S1x32 (m ((c : Thread nD τ).loc main_arg10)) shapeCasts_S32_S1x32 := by
  unfold V; after_results; rfl

/-! ## The printed index maps over the grid -/

/-- Row windows sit at block row `t`, block column 0; the whole-array windows at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = t.val ∧ win0_11.index t (1 : Fin 2) = 0) :=
  (by decide +kernel : ∀ t : Fin grid0.N, _)

/-- Row `q` of block `t` is row `4000 t + q` of the array. -/
def row (t : Fin cfg0.N) (q : Fin 4000) : Fin 500000 :=
  ⟨4000 * t.val + q.val, by have := t.isLt; have hN : cfg0.N = 125 := N_0; have := q.isLt; omega⟩

/-! ## The windows' blocks, read -/

theorem iblk0_apply (c : Dev nD) (t : Fin cfg0.N) (q : Fin 4000) (k : Fin 32) :
    (iblk m c 0 t : FVec Ideal S4000x32 .f32) (ix2 q k) = (m ((c : Thread nD τ).loc main_arg0) : Mat 500000 32) (ix2 (row t q) k) := by
  obtain ⟨⟨h0, h1⟩, -⟩ := idx_facts t
  unfold iblk
  rw [View.read_apply]
  show V m c main_arg0 _ = m (c.tc.loc main_arg0) _
  rw [V_main_arg0 m c]
  congr 1
  funext a
  apply Fin.ext
  match a with
  | ⟨0, _⟩ => show win0_0.index t 0 * 4000 + 1 * q.val = 4000 * t.val + q.val; rw [h0]; omega
  | ⟨1, _⟩ => show win0_0.index t 1 * 32 + 1 * k.val = k.val; rw [h1]; omega

theorem iblk1_apply (c : Dev nD) (t : Fin cfg0.N) (q : Fin 4000) :
    (iblk m c 1 t : FVec Ideal S4000x1 .f32) (ix2 q (0 : Fin 1)) = (m ((c : Thread nD τ).loc main_arg1) : Row 500000) (ix1 (row t q)) := by
  obtain ⟨-, ⟨h0, h1⟩, -⟩ := idx_facts t
  unfold iblk
  rw [View.read_apply]
  show V m c main_v0 _ = m (c.tc.loc main_arg1) _
  rw [V_v0 m c]
  refine Eq.trans (congrArg _ ?_) (Cert.RowBlocks.shapeCast_col_apply _ _ (row t q) (0 : Fin 1))
  funext a
  apply Fin.ext
  match a with
  | ⟨0, _⟩ => show win0_1.index t 0 * 4000 + 1 * q.val = 4000 * t.val + q.val; rw [h0]; omega
  | ⟨1, _⟩ => show win0_1.index t 1 * 1 + 1 * 0 = 0; rw [h1]

theorem iblk2_apply (c : Dev nD) (t : Fin cfg0.N) (q : Fin 4000) :
    (iblk m c 2 t : FVec Ideal S4000x1 .f32) (ix2 q (0 : Fin 1)) = (m ((c : Thread nD τ).loc main_arg2) : Row 500000) (ix1 (row t q)) := by
  obtain ⟨-, -, ⟨h0, h1⟩, -⟩ := idx_facts t
  unfold iblk
  rw [View.read_apply]
  show V m c main_v1 _ = m (c.tc.loc main_arg2) _
  rw [V_v1 m c]
  refine Eq.trans (congrArg _ ?_) (Cert.RowBlocks.shapeCast_col_apply _ _ (row t q) (0 : Fin 1))
  funext a
  apply Fin.ext
  match a with
  | ⟨0, _⟩ => show win0_2.index t 0 * 4000 + 1 * q.val = 4000 * t.val + q.val; rw [h0]; omega
  | ⟨1, _⟩ => show win0_2.index t 1 * 1 + 1 * 0 = 0; rw [h1]

theorem iblk3_apply (c : Dev nD) (t : Fin cfg0.N) (q : Fin 4000) (k : Fin 32) :
    (iblk m c 3 t : FVec Ideal S4000x32 .f32) (ix2 q k) = (m ((c : Thread nD τ).loc main_arg3) : Mat 500000 32) (ix2 (row t q) k) := by
  obtain ⟨-, -, -, ⟨h0, h1⟩, -⟩ := idx_facts t
  unfold iblk
  rw [View.read_apply]
  show V m c main_arg3 _ = m (c.tc.loc main_arg3) _
  rw [V_main_arg3 m c]
  congr 1
  funext a
  apply Fin.ext
  match a with
  | ⟨0, _⟩ => show win0_3.index t 0 * 4000 + 1 * q.val = 4000 * t.val + q.val; rw [h0]; omega
  | ⟨1, _⟩ => show win0_3.index t 1 * 32 + 1 * k.val = k.val; rw [h1]; omega

theorem iblk4_apply (c : Dev nD) (t : Fin cfg0.N) (q : Fin 4000) (k : Fin 32) :
    (iblk m c 4 t : FVec Ideal S4000x32 .f32) (ix2 q k) = (m ((c : Thread nD τ).loc main_arg4) : Mat 500000 32) (ix2 (row t q) k) := by
  obtain ⟨-, -, -, -, ⟨h0, h1⟩, -⟩ := idx_facts t
  unfold iblk
  rw [View.read_apply]
  show V m c main_arg4 _ = m (c.tc.loc main_arg4) _
  rw [V_main_arg4 m c]
  congr 1
  funext a
  apply Fin.ext
  match a with
  | ⟨0, _⟩ => show win0_4.index t 0 * 4000 + 1 * q.val = 4000 * t.val + q.val; rw [h0]; omega
  | ⟨1, _⟩ => show win0_4.index t 1 * 32 + 1 * k.val = k.val; rw [h1]; omega

theorem iblk5_eq (c : Dev nD) (t : Fin cfg0.N) :
    (iblk m c 5 t : FVec Ideal S64x96 .f32) = transpose S64x96 [1, 0] (m ((c : Thread nD τ).loc main_arg5)) transposes_S96x64_S64x96_1_0 := by
  obtain ⟨-, -, -, -, -, ⟨h0, h1⟩, -⟩ := idx_facts t
  funext y
  unfold iblk
  rw [View.read_apply]
  show V m c main_v2 _ = _
  rw [V_v2 m c]
  congr 1
  funext a
  apply Fin.ext
  match a with
  | ⟨0, _⟩ => show win0_5.index t 0 * 64 + 1 * (y 0).val = (y 0).val; rw [h0]; omega
  | ⟨1, _⟩ => show win0_5.index t 1 * 96 + 1 * (y 1).val = (y 1).val; rw [h1]; omega

theorem iblk6_eq (c : Dev nD) (t : Fin cfg0.N) :
    (iblk m c 6 t : FVec Ideal S32x96 .f32) = transpose S32x96 [1, 0] (m ((c : Thread nD τ).loc main_arg6)) transposes_S96x32_S32x96_1_0 := by
  obtain ⟨-, -, -, -, -, -, ⟨h0, h1⟩, -⟩ := idx_facts t
  funext y
  unfold iblk
  rw [View.read_apply]
  show V m c main_v3 _ = _
  rw [V_v3 m c]
  congr 1
  funext a
  apply Fin.ext
  match a with
  | ⟨0, _⟩ => show win0_6.index t 0 * 32 + 1 * (y 0).val = (y 0).val; rw [h0]; omega
  | ⟨1, _⟩ => show win0_6.index t 1 * 96 + 1 * (y 1).val = (y 1).val; rw [h1]; omega

theorem iblk7_apply (c : Dev nD) (t : Fin cfg0.N) (k : Fin 96) :
    (iblk m c 7 t : FVec Ideal S1x96 .f32) (ix2 (0 : Fin 1) k) = (m ((c : Thread nD τ).loc main_arg7) : Row 96) (ix1 k) := by
  obtain ⟨-, -, -, -, -, -, -, ⟨h0, h1⟩, -⟩ := idx_facts t
  unfold iblk
  rw [View.read_apply]
  show V m c main_v4 _ = m (c.tc.loc main_arg7) _
  rw [V_v4 m c]
  refine Eq.trans (congrArg _ ?_) (shapeCast_a_1a_apply _ _ (0 : Fin 1) k)
  funext a
  apply Fin.ext
  match a with
  | ⟨0, _⟩ => show win0_7.index t 0 * 1 + 1 * 0 = 0; rw [h0]
  | ⟨1, _⟩ => show win0_7.index t 1 * 96 + 1 * k.val = k.val; rw [h1]; omega

theorem iblk8_apply (c : Dev nD) (t : Fin cfg0.N) (k : Fin 96) :
    (iblk m c 8 t : FVec Ideal S1x96 .f32) (ix2 (0 : Fin 1) k) = (m ((c : Thread nD τ).loc main_arg8) : Row 96) (ix1 k) := by
  obtain ⟨-, -, -, -, -, -, -, -, ⟨h0, h1⟩, -⟩ := idx_facts t
  unfold iblk
  rw [View.read_apply]
  show V m c main_v5 _ = m (c.tc.loc main_arg8) _
  rw [V_v5 m c]
  refine Eq.trans (congrArg _ ?_) (shapeCast_a_1a_apply _ _ (0 : Fin 1) k)
  funext a
  apply Fin.ext
  match a with
  | ⟨0, _⟩ => show win0_8.index t 0 * 1 + 1 * 0 = 0; rw [h0]
  | ⟨1, _⟩ => show win0_8.index t 1 * 96 + 1 * k.val = k.val; rw [h1]; omega

theorem iblk9_apply (c : Dev nD) (t : Fin cfg0.N) (k : Fin 32) :
    (iblk m c 9 t : FVec Ideal S1x32 .f32) (ix2 (0 : Fin 1) k) = (m ((c : Thread nD τ).loc main_arg9) : Row 32) (ix1 k) := by
  obtain ⟨-, -, -, -, -, -, -, -, -, ⟨h0, h1⟩, -⟩ := idx_facts t
  unfold iblk
  rw [View.read_apply]
  show V m c main_v6 _ = m (c.tc.loc main_arg9) _
  rw [V_v6 m c]
  refine Eq.trans (congrArg _ ?_) (shapeCast_a_1a_apply _ _ (0 : Fin 1) k)
  funext a
  apply Fin.ext
  match a with
  | ⟨0, _⟩ => show win0_9.index t 0 * 1 + 1 * 0 = 0; rw [h0]
  | ⟨1, _⟩ => show win0_9.index t 1 * 32 + 1 * k.val = k.val; rw [h1]; omega

theorem iblk10_apply (c : Dev nD) (t : Fin cfg0.N) (k : Fin 32) :
    (iblk m c 10 t : FVec Ideal S1x32 .f32) (ix2 (0 : Fin 1) k) = (m ((c : Thread nD τ).loc main_arg10) : Row 32) (ix1 k) := by
  obtain ⟨-, -, -, -, -, -, -, -, -, -, ⟨h0, h1⟩, -⟩ := idx_facts t
  unfold iblk
  rw [View.read_apply]
  show V m c main_v7 _ = m (c.tc.loc main_arg10) _
  rw [V_v7 m c]
  refine Eq.trans (congrArg _ ?_) (shapeCast_a_1a_apply _ _ (0 : Fin 1) k)
  funext a
  apply Fin.ext
  match a with
  | ⟨0, _⟩ => show win0_10.index t 0 * 1 + 1 * 0 = 0; rw [h0]
  | ⟨1, _⟩ => show win0_10.index t 1 * 32 + 1 * k.val = k.val; rw [h1]; omega

/-! ## What a point writes back, and the whole array -/

theorem hz : (![0, 0] : Fin 2 → Nat) = fun _ => 0 := funext fun a => by fin_cases a <;> rfl

/-- The cell of the whole argument arrays: what the result array ends holding. -/
abbrev G (c : Dev nD) : Mat 500000 32 :=
  cell (m ((c : Thread nD τ).loc main_arg0) : Mat 500000 32)
    (fun q => (m ((c : Thread nD τ).loc main_arg1) : Row 500000) (ix1 q))
    (fun q => (m ((c : Thread nD τ).loc main_arg2) : Row 500000) (ix1 q))
    (m ((c : Thread nD τ).loc main_arg3) : Mat 500000 32) (m ((c : Thread nD τ).loc main_arg4) : Mat 500000 32)
    (transpose S64x96 [1, 0] (m ((c : Thread nD τ).loc main_arg5)) transposes_S96x64_S64x96_1_0)
    (transpose S32x96 [1, 0] (m ((c : Thread nD τ).loc main_arg6)) transposes_S96x32_S32x96_1_0)
    (fun k => (m ((c : Thread nD τ).loc main_arg7) : Row 96) (ix1 k))
    (fun k => (m ((c : Thread nD τ).loc main_arg8) : Row 96) (ix1 k))
    (fun k => (m ((c : Thread nD τ).loc main_arg9) : Row 32) (ix1 k))
    (fun k => (m ((c : Thread nD τ).loc main_arg10) : Row 32) (ix1 k))

/-- What the body leaves in the output block is the cell of the input blocks. -/
theorem out_eq (x0 : FVec Ideal S4000x32 .f32) (x1 x2 : FVec Ideal S4000x1 .f32) (x3 x4 : FVec Ideal S4000x32 .f32)
    (x5 : FVec Ideal S64x96 .f32) (x6 : FVec Ideal S32x96 .f32) (x7 x8 : FVec Ideal S1x96 .f32) (x9 x10 : FVec Ideal S1x32 .f32) :
    out0_11 (F := Ideal) x0 x1 x2 x3 x4 x5 x6 x7 x8 x9 x10
      = cell x0 (fun q => x1 (ix2 q (0 : Fin 1))) (fun q => x2 (ix2 q (0 : Fin 1))) x3 x4 x5 x6
          (fun k => x7 (ix2 (0 : Fin 1) k)) (fun k => x8 (ix2 (0 : Fin 1) k)) (fun k => x9 (ix2 (0 : Fin 1) k))
          (fun k => x10 (ix2 (0 : Fin 1) k)) := by
  funext y
  unfold out0_11
  simp only [View.ld_unit_zero (S := S4000x32) hz, View.ld_unit_zero (S := S4000x1) hz, View.ld_unit_zero (S := S64x96) hz,
    View.ld_unit_zero (S := S32x96) hz, View.ld_unit_zero (S := S1x96) hz, View.ld_unit_zero (S := S1x32) hz]
  rw [canon11_eq, Kern.block_eq]

/-- Point `t` writes back block `t` of the cell of the whole arrays. -/
theorem flushed_eq (c : Dev nD) (t : Fin cfg0.N) :
    (dats m 0 c).flushed 11 t = ((cfg0.win 11).blk t).view.read (Elt Ideal) (G m c) := by
  obtain ⟨-, -, -, -, -, -, -, -, -, -, -, ⟨h0, h1⟩⟩ := idx_facts t
  rw [flushed11, out_eq (iblk m c 0 t) (iblk m c 1 t) (iblk m c 2 t) (iblk m c 3 t) (iblk m c 4 t) (iblk m c 5 t) (iblk m c 6 t)
    (iblk m c 7 t) (iblk m c 8 t) (iblk m c 9 t) (iblk m c 10 t)]
  have e7 : (fun k : Fin 96 => (iblk m c 7 t : FVec Ideal S1x96 .f32) (ix2 (0 : Fin 1) k))
      = fun k => (m ((c : Thread nD τ).loc main_arg7) : Row 96) (ix1 k) := funext fun k => iblk7_apply m c t k
  have e8 : (fun k : Fin 96 => (iblk m c 8 t : FVec Ideal S1x96 .f32) (ix2 (0 : Fin 1) k))
      = fun k => (m ((c : Thread nD τ).loc main_arg8) : Row 96) (ix1 k) := funext fun k => iblk8_apply m c t k
  have e9 : (fun k : Fin 32 => (iblk m c 9 t : FVec Ideal S1x32 .f32) (ix2 (0 : Fin 1) k))
      = fun k => (m ((c : Thread nD τ).loc main_arg9) : Row 32) (ix1 k) := funext fun k => iblk9_apply m c t k
  have e10 : (fun k : Fin 32 => (iblk m c 10 t : FVec Ideal S1x32 .f32) (ix2 (0 : Fin 1) k))
      = fun k => (m ((c : Thread nD τ).loc main_arg10) : Row 32) (ix1 k) := funext fun k => iblk10_apply m c t k
  rw [e7, e8, e9, e10, iblk5_eq m c t, iblk6_eq m c t]
  funext y
  obtain ⟨q, j, rfl⟩ : ∃ (q : Fin 4000) (j : Fin 32), y = ix2 q j := ⟨y 0, y 1, eq_ix2 y⟩
  have e : ((cfg0.win 11).blk t).view.emb (ix2 q j) = ix2 (row t q) j := by
    funext a
    apply Fin.ext
    match a with
    | ⟨0, _⟩ => show win0_11.index t 0 * 4000 + 1 * q.val = 4000 * t.val + q.val; rw [h0]; omega
    | ⟨1, _⟩ => show win0_11.index t 1 * 32 + 1 * j.val = j.val; rw [h1]; omega
  show cell _ _ _ _ _ _ _ _ _ _ _ (ix2 q j) = G m c (((cfg0.win 11).blk t).view.emb (ix2 q j))
  rw [e]
  exact cell_rows _ _ _ _ _ _ _ _ _ _ _ _ _ _ _ _ (row t q) q (fun k => iblk0_apply m c t q k) (iblk1_apply m c t q)
    (iblk2_apply m c t q) (fun k => iblk3_apply m c t q k) (fun k => iblk4_apply m c t q k) j

/-- Every row of the result lies in the block of the point `row / 4000`. -/
theorem cover (c : Dev nD) (i : S500000x32.Idx) :
    ∃ t : Fin cfg0.N, (cfg0.win 11).flush t = true ∧ i ∈ ((cfg0.win 11).blk t).view.set := by
  have hi0 : (i 0).val < 500000 := (i 0).isLt
  have hi1 : (i 1).val < 32 := (i 1).isLt
  have hN : cfg0.N = 125 := N_0
  have ht : (i 0).val / 4000 < cfg0.N := by omega
  obtain ⟨-, -, -, -, -, -, -, -, -, -, -, ⟨h0, h1⟩⟩ := idx_facts ⟨(i 0).val / 4000, ht⟩
  refine ⟨⟨(i 0).val / 4000, ht⟩, flush0_11 _, ?_⟩
  show i ∈ ((View.whole main_v8).slice (win0_11.rect ⟨(i 0).val / 4000, ht⟩)).set
  rw [View.set_slice_whole, Rect.mem_set_unit]
  intro a
  match a with
  | ⟨0, _⟩ =>
    show win0_11.index ⟨(i 0).val / 4000, ht⟩ 0 * 4000 ≤ (i 0).val ∧ (i 0).val < win0_11.index ⟨(i 0).val / 4000, ht⟩ 0 * 4000 + 4000
    rw [h0]
    show (i 0).val / 4000 * 4000 ≤ (i 0).val ∧ (i 0).val < (i 0).val / 4000 * 4000 + 4000
    omega
  | ⟨1, _⟩ =>
    show win0_11.index ⟨(i 0).val / 4000, ht⟩ 1 * 32 ≤ (i 1).val ∧ (i 1).val < win0_11.index ⟨(i 0).val / 4000, ht⟩ 1 * 32 + 32
    rw [h1]
    omega

/-- The result array after the run is the cell of the whole argument arrays. -/
theorem final (c : Dev nD) : (dats m 0 c).arrAt 11 cfg0.N = G m c :=
  (dats m 0 c).arrAt_eq_of_cover 11 (G m c) (fun t _ => flushed_eq m c t) (cover c)

/-- The run, read: the result at the cell of the arguments, the arguments unchanged. -/
theorem run : θ_run defs (onTc (τ := τ) (main (F := Ideal))) ⟨m, fun _ => 0, ρ⟩ fun r => ∀ c : Dev nD,
      r.2.mem ((c : Thread nD τ).loc main_v8) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun _ h c => ⟨(h c).1.trans (final m c), (h c).2⟩) (Cert.KernelIdeal.Value.run_blocks m ρ)

end Cert.Gru.Blocks

end
-- ==== Proof.RefBridge.lean ====
/-
  The host program's result is the recurrent cell of its arguments, entry by entry.

  Read one operation at a time: the time encoding is `cos ((t1 p - t2 p) · ω_k + φ_k)` after the broadcasts are read away;
  the concatenation of the message with it is `feat`; each dot product with a transposed weight matrix, plus its bias
  broadcast along the rows, is one side's `gate`; the three column slices pick the three gate groups; the sigmoid the
  program spells `1 / (1 + exp (-x))` is the extended reals' `logistic` by its definition; what is left is `step`.
-/
import proofs.«152315_g17171279250048_cont_8to1_37_2_alg».proof.Proof.Gen.ReferenceIdeal.Read
import proofs.«152315_g17171279250048_cont_8to1_37_2_alg».proof.Proof.Spec
import Idealize.ShloMosaic.Lib.IdealHost

noncomputable section

open scoped BigOperators

namespace Cert.Gru.Ref

open Idealize.ShloMosaic Idealize.ShloMosaic.ValueIdx Cert.Dense Cert.Gru
open Cert.ReferenceIdeal Cert.ReferenceIdeal.Gen Cert.ReferenceIdeal.Read

/-- The sigmoid spelt with the literal one is the extended reals' logistic function. -/
theorem logistic_spelt (x : EReal) : Ideal.div one (one + Ideal.exp (-x)) = Ideal.logistic x := by
  unfold one
  rw [Ideal.ofBits_one_f32]
  rfl

variable (x0 x3 x4 : (⟨S500000x32, .f32⟩ : BufTy).Contents (Elt Ideal))
variable (x1 x2 : (⟨S500000, .f32⟩ : BufTy).Contents (Elt Ideal))
variable (x5 : (⟨S96x64, .f32⟩ : BufTy).Contents (Elt Ideal)) (x6 : (⟨S96x32, .f32⟩ : BufTy).Contents (Elt Ideal))
variable (x7 x8 : (⟨S96, .f32⟩ : BufTy).Contents (Elt Ideal)) (x9 x10 : (⟨S32, .f32⟩ : BufTy).Contents (Elt Ideal))

/-- The time encoding at row `p`, frequency `k`. -/
theorem timeEnc_apply (p : Fin 500000) (k : Fin 32) :
    val_main_v9 (F := Ideal) x1 x2 x9 x10 (ix2 p k)
      = Ideal.cos ((x1 (ix1 p) - x2 (ix1 p)) * x9 (ix1 k) + x10 (ix1 k)) := by
  have e1 : idx_main_v1 (idx_main_v3 (ix2 p k)) = ix1 p := funext fun a => Fin.ext (by match a with | ⟨0, _⟩ => rfl)
  have e2 : idx_main_v2 (idx_main_v4 (ix2 p k)) = ix1 k := funext fun a => Fin.ext (by match a with | ⟨0, _⟩ => rfl)
  have e3 : idx_main_v6 (idx_main_v7 (ix2 p k)) = ix1 k := funext fun a => Fin.ext (by match a with | ⟨0, _⟩ => rfl)
  rw [val_main_v9_apply, val_main_v8_apply, val_main_v5_apply, val_main_v3_apply, val_main_v1_apply, val_main_v0_apply,
    val_main_v4_apply, val_main_v2_apply, val_main_v7_apply, val_main_v6_apply, e1, e2, e3]
  rfl

/-- The message joined with the time encoding is `feat`. -/
theorem joined_eq :
    val_main_v10 (F := Ideal) x0 x1 x2 x9 x10
      = feat x0 (fun q => x1 (ix1 q)) (fun q => x2 (ix1 q)) (fun k => x9 (ix1 k)) (fun k => x10 (ix1 k)) := by
  funext i
  obtain ⟨p, k, rfl⟩ : ∃ (p : Fin 500000) (k : Fin 64), i = ix2 p k := ⟨i 0, i 1, eq_ix2 i⟩
  unfold val_main_v10
  by_cases h : k.val < 32
  · rw [feat_left _ _ _ _ _ _ _ h]
    exact concatenate_pair_apply_left (t := S500000x64) (s₁ := S500000x32) (s₂ := S500000x32) (1 : Fin 2) x0
      (val_main_v9 (F := Ideal) x1 x2 x9 x10) concatenates_S500000x32_S500000x32_S500000x64_d1 (ix2 p k) rfl
      (ix2 p ⟨k.val, h⟩) (fun b => by match b with | ⟨0, _⟩ => rfl | ⟨1, _⟩ => rfl)
  · have h' : 32 ≤ k.val := Nat.not_lt.1 h
    rw [feat_right _ _ _ _ _ _ _ h']
    refine (concatenate_pair_apply_right (t := S500000x64) (s₁ := S500000x32) (s₂ := S500000x32) (1 : Fin 2) x0
      (val_main_v9 (F := Ideal) x1 x2 x9 x10) concatenates_S500000x32_S500000x32_S500000x64_d1 (ix2 p k) rfl rfl
      (ix2 p (⟨k.val - 32, by have := k.isLt; omega⟩ : Fin 32)) (fun b hb => by
        match b with
        | ⟨0, _⟩ => rfl
        | ⟨1, _⟩ => exact absurd rfl hb) (by show k.val - 32 + 32 = k.val; omega)).trans ?_
    exact timeEnc_apply x1 x2 x9 x10 p _

/-- The input side's pre-activations. -/
theorem gx_apply (p : Fin 500000) (c : Fin 96) :
    val_main_v15 (F := Ideal) x0 x1 x2 x5 x7 x9 x10 (ix2 p c)
      = gate (feat x0 (fun q => x1 (ix1 q)) (fun q => x2 (ix1 q)) (fun k => x9 (ix1 k)) (fun k => x10 (ix1 k)))
          (val_main_v11 (F := Ideal) x5) (fun c => x7 (ix1 c)) p c := by
  have e12 : val_main_v12 (F := Ideal) x0 x1 x2 x5 x9 x10
      = mm (val_main_v10 (F := Ideal) x0 x1 x2 x9 x10) (val_main_v11 (F := Ideal) x5) := by
    unfold val_main_v12
    exact hostDot_eq_mm _ rfl rfl rfl rfl rfl rfl none _ _
  have eb : idx_main_v13 (idx_main_v14 (ix2 p c)) = ix1 c := funext fun a => Fin.ext (by match a with | ⟨0, _⟩ => rfl)
  rw [val_main_v15_apply, val_main_v14_apply, val_main_v13_apply, e12, joined_eq, eb]
  rfl

/-- The memory side's pre-activations. -/
theorem gh_apply (p : Fin 500000) (c : Fin 96) :
    val_main_v20 (F := Ideal) x3 x6 x8 (ix2 p c) = gate x3 (val_main_v16 (F := Ideal) x6) (fun c => x8 (ix1 c)) p c := by
  have e17 : val_main_v17 (F := Ideal) x3 x6 = mm x3 (val_main_v16 (F := Ideal) x6) := by
    unfold val_main_v17
    exact hostDot_eq_mm _ rfl rfl rfl rfl rfl rfl none _ _
  have eb : idx_main_v18 (idx_main_v19 (ix2 p c)) = ix1 c := funext fun a => Fin.ext (by match a with | ⟨0, _⟩ => rfl)
  rw [val_main_v20_apply, val_main_v19_apply, val_main_v18_apply, e17, eb]
  rfl

/-- The program's result is the cell. -/
theorem result_eq :
    val_main_v49 (F := Ideal) x0 x1 x2 x3 x4 x5 x6 x7 x8 x9 x10
      = cell x0 (fun q => x1 (ix1 q)) (fun q => x2 (ix1 q)) x3 x4 (val_main_v11 (F := Ideal) x5) (val_main_v16 (F := Ideal) x6)
          (fun c => x7 (ix1 c)) (fun c => x8 (ix1 c)) (fun k => x9 (ix1 k)) (fun k => x10 (ix1 k)) := by
  funext i
  obtain ⟨p, j, rfl⟩ : ∃ (p : Fin 500000) (j : Fin 32), i = ix2 p j := ⟨i 0, i 1, eq_ix2 i⟩
  have s21 : idx_main_v21 (ix2 p j) = ix2 p (g0 j) := funext fun a => Fin.ext (by match a with | ⟨0, _⟩ => rfl | ⟨1, _⟩ => rfl)
  have s22 : idx_main_v22 (ix2 p j) = ix2 p (g1 j) := funext fun a => Fin.ext (by
    match a with | ⟨0, _⟩ => rfl | ⟨1, _⟩ => show 32 + j.val = j.val + 32; omega)
  have s23 : idx_main_v23 (ix2 p j) = ix2 p (g2 j) := funext fun a => Fin.ext (by
    match a with | ⟨0, _⟩ => rfl | ⟨1, _⟩ => show 64 + j.val = j.val + 64; omega)
  have s24 : idx_main_v24 (ix2 p j) = ix2 p (g0 j) := funext fun a => Fin.ext (by match a with | ⟨0, _⟩ => rfl | ⟨1, _⟩ => rfl)
  have s25 : idx_main_v25 (ix2 p j) = ix2 p (g1 j) := funext fun a => Fin.ext (by
    match a with | ⟨0, _⟩ => rfl | ⟨1, _⟩ => show 32 + j.val = j.val + 32; omega)
  have s26 : idx_main_v26 (ix2 p j) = ix2 p (g2 j) := funext fun a => Fin.ext (by
    match a with | ⟨0, _⟩ => rfl | ⟨1, _⟩ => show 64 + j.val = j.val + 64; omega)
  rw [cell_apply]
  simp only [val_main_v49_apply, val_main_v48_apply, val_main_v47_apply, val_main_v46_apply, val_main_v45_apply,
    val_main_v44_apply, val_main_cst_3_apply, val_main_v43_apply, val_main_v42_apply, val_main_v41_apply,
    val_main_v40_apply, val_main_v39_apply, val_main_cst_2_apply, val_main_v38_apply, val_main_v37_apply,
    val_main_cst_1_apply, val_main_v36_apply, val_main_v35_apply, val_main_v34_apply, val_main_v33_apply,
    val_main_v32_apply, val_main_cst_0_apply, val_main_v31_apply, val_main_v30_apply, val_main_cst_apply,
    val_main_v29_apply, val_main_v28_apply, val_main_v27_apply, val_main_v26_apply, val_main_v25_apply,
    val_main_v24_apply, val_main_v23_apply, val_main_v22_apply, val_main_v21_apply,
    s21, s22, s23, s24, s25, s26, gx_apply, gh_apply]
  unfold step
  rw [← logistic_spelt, ← logistic_spelt]
  rfl

end Cert.Gru.Ref

end
-- ==== Proof.lean ====
/-
  A streaming gated-recurrent memory update: the kernel against its plain reference, on the extended reals.

  For each of 500000 rows both programs form the time encoding `cos (Δt · ω_k + φ_k)` of the difference of two time
  stamps, join it to the row's message, take the two affine gate maps `x · Wᵀ + b` (message side, 64 features; memory
  side, 32 features; 96 pre-activations each, the weights transposed on the host in both programs), and finish with the
  recurrent step `(1 - z) · n + z · mem + rh`, `r = σ(·)`, `z = σ(·)`, `n = tanh (· + r · ·)`.  The kernel does this
  for 125 blocks of 4000 rows with the matrix unit and the vector unit's logistic; the reference for all rows at once with
  the host's dot product and the sigmoid spelt `1 / (1 + exp (-x))`.  On the extended reals these are one function of
  the arguments, entry by entry, with the same order of every sum and product: no algebraic law is needed, hence no
  finiteness of the inputs.  `Cert.Gru.cell` is that function; `Cert.Gru.Ref.result_eq` reads the reference as it,
  `Cert.Gru.Kern.block_eq` each block the kernel's body leaves, and `Cert.Gru.Blocks.run` the whole result array after the
  kernel's run (a row of the cell depends on its own row only, and the blocks tile the rows).
  The three frames are the generated ones (the reference's is its generated run with the result dropped); the
  idealization rewrote nothing, so its claim is `True`.
-/
import proofs.«152315_g17171279250048_cont_8to1_37_2_alg».proof.Defs
import proofs.«152315_g17171279250048_cont_8to1_37_2_alg».proof.Proof.Gen.Kernel
import proofs.«152315_g17171279250048_cont_8to1_37_2_alg».proof.Proof.Gen.Kernel.Skeleton
import proofs.«152315_g17171279250048_cont_8to1_37_2_alg».proof.Proof.Gen.Kernel.Launch
import proofs.«152315_g17171279250048_cont_8to1_37_2_alg».proof.Proof.Gen.Kernel.Points
import proofs.«152315_g17171279250048_cont_8to1_37_2_alg».proof.Proof.Gen.Kernel.Frame
import proofs.«152315_g17171279250048_cont_8to1_37_2_alg».proof.Proof.Gen.KernelIdeal
import proofs.«152315_g17171279250048_cont_8to1_37_2_alg».proof.Proof.Gen.KernelIdeal.Skeleton
import proofs.«152315_g17171279250048_cont_8to1_37_2_alg».proof.Proof.Gen.KernelIdeal.Launch
import proofs.«152315_g17171279250048_cont_8to1_37_2_alg».proof.Proof.Gen.KernelIdeal.Points
import proofs.«152315_g17171279250048_cont_8to1_37_2_alg».proof.Proof.Gen.KernelIdeal.Frame
import proofs.«152315_g17171279250048_cont_8to1_37_2_alg».proof.Proof.Gen.ReferenceIdeal
import proofs.«152315_g17171279250048_cont_8to1_37_2_alg».proof.Proof.Gen.KernelIdeal.Value
import proofs.«152315_g17171279250048_cont_8to1_37_2_alg».proof.Proof.Gen.ReferenceIdeal.Run
import proofs.«152315_g17171279250048_cont_8to1_37_2_alg».proof.Proof.Gen.ReferenceIdeal.Read
import proofs.«152315_g17171279250048_cont_8to1_37_2_alg».proof.Proof.Gen.Pre_finite_inputs
import proofs.«152315_g17171279250048_cont_8to1_37_2_alg».proof.Proof.Blocks
import proofs.«152315_g17171279250048_cont_8to1_37_2_alg».proof.Proof.RefBridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the cell of the (agreeing) arguments. -/
theorem algebraic : Cert.algebraic_KernelIdeal_ReferenceIdeal := by
  intro m ρ m' ρ' _ hagree
  refine ⟨fun c => Cert.Gru.Blocks.G m c, Cert.Gru.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v49_eq, Cert.Gru.Ref.result_eq, a0, a1, a2, a3, a4, a5, a6, a7, a8, a9, a10]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
